-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel

variable [Facts]

def fn {F : FTy → Type} [FloatOps F] (main_arg0 : FVec F S8x64x128x128 .f32) (main_arg1 : FVec F S8x64x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  let main_v4 : FVec F S8x64x128x128 .f32 := Host.absf main_arg1
  let main_cst_0 : FVec F S_ .f32 := constant S_ .f32 0x7F800000#32
  let main_v5 : FVec F S8x64x128x128 .f32 := broadcastInDim S8x64x128x128 ![] bcast_S_S8x64x128x128 main_cst_0
  let main_v6 : IVec S8x64x128x128 1 := cmpf .olt main_v4 main_v5
  let main_c_1 : IVec S_ 1 := constantI S_ 1 1#1
  let main_v7 : IVec S_ 1 := (fun x v => Host.reduce IntOp.andi x v reducesTo_S8x64x128x128_S_d0_1_2_3 h_S_) main_v6 main_c_1
  let main_v8 : IVec S_ 1 := andi main_v3 main_v7
  main_v8
-- ==== Kernel.lean ====
abbrev S8x64x128x128 : Shape := ⟨4, ![8, 64, 128, 128]⟩
abbrev S8x1024x64 : Shape := ⟨3, ![8, 1024, 64]⟩
abbrev S1x64x128x128 : Shape := ⟨4, ![1, 64, 128, 128]⟩
abbrev S1x1024x64 : Shape := ⟨3, ![1, 1024, 64]⟩
abbrev S64x128x128 : Shape := ⟨3, ![64, 128, 128]⟩
abbrev S64x128x32x4 : Shape := ⟨4, ![64, 128, 32, 4]⟩
abbrev S64x128x32 : Shape := ⟨3, ![64, 128, 32]⟩
abbrev S64x32x4x32 : Shape := ⟨4, ![64, 32, 4, 32]⟩
abbrev S64x32x32 : Shape := ⟨3, ![64, 32, 32]⟩
abbrev S32x32x64 : Shape := ⟨3, ![32, 32, 64]⟩
abbrev S1024x64 : Shape := ⟨2, ![1024, 64]⟩
abbrev S1024 : Shape := ⟨1, ![1024]⟩
abbrev S1024x1 : Shape := ⟨2, ![1024, 1]⟩
abbrev S8192x64 : Shape := ⟨2, ![8192, 64]⟩
abbrev S64x64 : Shape := ⟨2, ![64, 64]⟩
abbrev S_ : Shape := ⟨0, ![]⟩

abbrev nBuf : Space → Nat
  | .hbm => 24
  | .vmem => 13
  | .smem => 0
  | _ => 0

abbrev bufTy : (tb : Table) → Fin (tcTables nBuf tb) → BufTy
  | .hbm, ⟨0, _⟩ => ⟨S8x64x128x128, .f32⟩
  | .hbm, ⟨1, _⟩ => ⟨S8x64x128x128, .f32⟩
  | .hbm, ⟨2, _⟩ => ⟨S8x1024x64, .f32⟩
  | .hbm, ⟨3, _⟩ => ⟨S8x1024x64, .f32⟩
  | .hbm, ⟨4, _⟩ => ⟨S8192x64, .f32⟩
  | .hbm, ⟨5, _⟩ => ⟨S8192x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S_, .f32⟩
  | .hbm, ⟨12, _⟩ => ⟨S64x64, .f32⟩
  | .hbm, ⟨13, _⟩ => ⟨S_, .f32⟩
  | .hbm, ⟨14, _⟩ => ⟨S_, .f32⟩
  | .hbm, ⟨15, _⟩ => ⟨S64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S8192x64, .f32⟩
  | .local _ .vmem, ⟨9, _⟩ => ⟨S8192x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S64x128x32x4 : S64x128x128.ShapeCasts S64x128x32x4
  reduces_S64x128x32x4_S64x128x32 : S64x128x32x4.Reduces [3] S64x128x32
  shapeCasts_S64x128x32_S64x32x4x32 : S64x128x32.ShapeCasts S64x32x4x32
  reduces_S64x32x4x32_S64x32x32 : S64x32x4x32.Reduces [2] S64x32x32
  transposes_S64x32x32_p1_2_0_S32x32x64 : S64x32x32.Transposes [1, 2, 0] S32x32x64
  shapeCasts_S32x32x64_S1024x64 : S32x32x64.ShapeCasts S1024x64
  reduces_S1024x64_S1024 : S1024x64.Reduces [1] S1024
  shapeCasts_S1024_S1024x1 : S1024.ShapeCasts S1024x1
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S8x1024x64_S8192x64 : S8x1024x64.ShapeCasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reducesTo_S64x64_S_d0_1 : S64x64.ReducesTo [0, 1] S_
  h_S_ : 0 < S_.numel
  dot_S8192x64_S8192x64_S64x64_0_0_1_1_n_n_wf : DotDims.WF S8192x64 S8192x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S8x64x128x128.size a
  hwx0_0 : ∀ i : grid0.Coords, EltTy.bits .f32 = 32 ∨ (Rect.block (s := S8x64x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S8x64x128x128.size a
  hwx0_1 : ∀ i : grid0.Coords, EltTy.bits .f32 = 32 ∨ (Rect.block (s := S8x64x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x1024x64.size a
  hwx0_2 : ∀ i : grid0.Coords, EltTy.bits .f32 = 32 ∨ (Rect.block (s := S8x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x1024x64.size a
  hwx0_3 : ∀ i : grid0.Coords, EltTy.bits .f32 = 32 ∨ (Rect.block (s := S8x1024x64) S1x1024x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S8192x64.size a
  hwx1_0 : ∀ i : grid1.Coords, EltTy.bits .f32 = 32 ∨ (Rect.block (s := S8192x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S8192x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S64x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S64x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_2) S64x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x64x128x128 : Shape := ⟨4, ![8, 64, 128, 128]⟩
abbrev S8x64x32x4x32x4 : Shape := ⟨6, ![8, 64, 32, 4, 32, 4]⟩
abbrev S_ : Shape := ⟨0, ![]⟩
abbrev S8x64x32x32 : Shape := ⟨4, ![8, 64, 32, 32]⟩
abbrev S8x64x1024 : Shape := ⟨3, ![8, 64, 1024]⟩
abbrev S8x1024x64 : Shape := ⟨3, ![8, 1024, 64]⟩
abbrev S8192x64 : Shape := ⟨2, ![8192, 64]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S8x64x128x128, .f32⟩
  | .hbm, ⟨2, _⟩ => ⟨S8x64x32x4x32x4, .f32⟩
  | .hbm, ⟨3, _⟩ => ⟨S_, .f32⟩
  | .hbm, ⟨4, _⟩ => ⟨S8x64x32x32, .f32⟩
  | .hbm, ⟨5, _⟩ => ⟨S_, .f32⟩
  | .hbm, ⟨6, _⟩ => ⟨S8x64x32x32, .f32⟩
  | .hbm, ⟨7, _⟩ => ⟨S8x64x32x32, .f32⟩
  | .hbm, ⟨8, _⟩ => ⟨S8x64x1024, .f32⟩
  | .hbm, ⟨9, _⟩ => ⟨S8x1024x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S64x8192, .f32⟩
  | .hbm, ⟨22, _⟩ => ⟨S8192x8192, .f32⟩
  | .hbm, ⟨23, _⟩ => ⟨S8x64x32x4x32x4, .f32⟩
  | .hbm, ⟨24, _⟩ => ⟨S_, .f32⟩
  | .hbm, ⟨25, _⟩ => ⟨S8x64x32x32, .f32⟩
  | .hbm, ⟨26, _⟩ => ⟨S_, .f32⟩
  | .hbm, ⟨27, _⟩ => ⟨S8x64x32x32, .f32⟩
  | .hbm, ⟨28, _⟩ => ⟨S8x64x32x32, .f32⟩
  | .hbm, ⟨29, _⟩ => ⟨S8x64x1024, .f32⟩
  | .hbm, ⟨30, _⟩ => ⟨S8x1024x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x64, .f32⟩
  | .hbm, ⟨41, _⟩ => ⟨S8192x64, .f32⟩
  | .hbm, ⟨42, _⟩ => ⟨S64x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  shapeCasts_S8x64x128x128_S8x64x32x4x32x4 : S8x64x128x128.ShapeCasts S8x64x32x4x32x4
  reducesTo_S8x64x32x4x32x4_S8x64x32x32_d3_5 : S8x64x32x4x32x4.ReducesTo [3, 5] S8x64x32x32
  h_S_ : 0 < S_.numel
  bcast_S_S8x64x32x32 : S_.BroadcastsInDim S8x64x32x32 (![] : Fin 0 → Fin S8x64x32x32.rank)
  shapeCasts_S8x64x32x32_S8x64x1024 : S8x64x32x32.ShapeCasts S8x64x1024
  transposes_S8x64x1024_S8x1024x64_0_2_1 : S8x64x1024.Transposes [0, 2, 1] S8x1024x64
  shapeCasts_S8x1024x64_S8192x64 : S8x1024x64.ShapeCasts S8192x64
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  The common mathematics of the two programs, stated once over the argument arrays.

  From an array `x` of shape [8, 64, 128, 128] both programs form the same 8192 × 64 matrix of rows: row
  `n = b·1024 + s` (batch `b`, pooled pixel `s = sh·32 + sw`) holds, in column `c`, the mean of the 4 × 4 block
  `x[b, c, 4·sh .. 4·sh+3, 4·sw .. 4·sw+3]`, and the row is then divided by `max(‖row‖₂, ε)`.  With `X₁`, `X₂` the two
  row matrices, the reference returns the mean over all 8192² pairs of `(⟨X₁ i, X₁ j⟩ − ⟨X₂ i, X₂ j⟩)²`, while the kernel
  returns `(‖X₁ᵀX₁‖² − 2‖X₁ᵀX₂‖² + ‖X₂ᵀX₂‖²) / 8192²` from three 64 × 64 matrices.
-/
import Idealize.ShloMosaic.PureOps.Ideal
import Idealize.ShloMosaic.Lib.ValueIdx

noncomputable section

namespace Cert.RegionLoss

open Idealize.ShloMosaic Idealize.ShloMosaic.ValueIdx

/-- The index type of an argument array [8, 64, 128, 128]. -/
abbrev ArgIdx : Type := (⟨4, ![8, 64, 128, 128]⟩ : Shape).Idx

/-- One batch entry of an argument: 64 channels of 128 × 128 pixels, by coordinates. -/
abbrev Slab : Type := Fin 64 → Fin 128 → Fin 128 → EReal

/-- Batch entry `b` of an argument array. -/
def slab (x : ArgIdx → EReal) (b : Fin 8) : Slab := fun c h w => x (ix4 b c h w)

/-- Pixel `4·s + k` of an axis of length 128: member `k` of pooling cell `s`. -/
def cell (s : Fin 32) (k : Fin 4) : Fin 128 := ⟨s.val * 4 + k.val, by omega⟩

/-- The sum of the 4 × 4 block of channel `c` at pooled position `(sh, sw)`. -/
def blockSum (y : Slab) (c : Fin 64) (sh sw : Fin 32) : EReal :=
  ∑ kh : Fin 4, ∑ kw : Fin 4, y c (cell sh kh) (cell sw kw)

/-- The pooled value: the block's mean, at pooled pixel `s = sh·32 + sw` and channel `c`. -/
def pooled (y : Slab) (s : Fin 1024) (c : Fin 64) : EReal :=
  blockSum y c ⟨s.val / 32, by omega⟩ ⟨s.val % 32, by omega⟩ * ((1 / 16 : ℝ) : EReal)

/-- `max(‖row‖₂, ε)` of the pooled row `s`, with ε the f32 word of `1e-8`. -/
def rowNorm (y : Slab) (s : Fin 1024) : EReal :=
  max (Ideal.sqrt (∑ c : Fin 64, pooled y s c * pooled y s c)) (Ideal.ofBits .f32 0x322BCC77#32)

/-- The normalized pooled row `s` at channel `c`. -/
def unit (y : Slab) (s : Fin 1024) (c : Fin 64) : EReal :=
  Ideal.div (pooled y s c) (rowNorm y s)

/-- The 8192 × 64 matrix of normalized rows of an argument array, row `n = b·1024 + s`. -/
def unitRow (x : ArgIdx → EReal) (n : Fin 8192) (c : Fin 64) : EReal :=
  unit (slab x ⟨n.val / 1024, by omega⟩) ⟨n.val % 1024, by omega⟩ c

/-- Entry `(c, d)` of `Xᵀ Y`. -/
def gram (X Y : Fin 8192 → Fin 64 → EReal) (c d : Fin 64) : EReal := ∑ n : Fin 8192, X n c * Y n d

/-- The squared Frobenius norm of a 64 × 64 matrix. -/
def sumSq (G : Fin 64 → Fin 64 → EReal) : EReal := ∑ c : Fin 64, ∑ d : Fin 64, G c d * G c d

/-- Entry `(i, j)` of `X Xᵀ`. -/
def sim (X : Fin 8192 → Fin 64 → EReal) (i j : Fin 8192) : EReal := ∑ c : Fin 64, X i c * X j c

/-- The kernel's closed form: three 64 × 64 Gram matrices, divided by the f32 word of 8192² = 2²⁶. -/
def lossGram (X₁ X₂ : Fin 8192 → Fin 64 → EReal) : EReal :=
  Ideal.div (sumSq (gram X₁ X₁) - Ideal.ofBits .f32 0x40000000#32 * sumSq (gram X₁ X₂) + sumSq (gram X₂ X₂))
    (Ideal.ofBits .f32 0x4C800000#32)

/-- The reference's form: the mean over all pairs of rows of the squared difference of the two similarities. -/
def lossPairs (X₁ X₂ : Fin 8192 → Fin 64 → EReal) : EReal :=
  Ideal.div (∑ i : Fin 8192, ∑ j : Fin 8192, (sim X₁ i j - sim X₂ i j) * (sim X₁ i j - sim X₂ i j))
    (Ideal.ofBits .f32 0x4C800000#32)

end Cert.RegionLoss

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.Algebra.lean ====
/-
  The algebra shared by the two programs' final reductions, and the finiteness of the normalized rows.

  For real matrices a, b with rows i, j, n over one finite set and columns c, d over another,

      ∑_i ∑_j ( ⟨a_i, a_j⟩ − ⟨b_i, b_j⟩ )²  =  ‖aᵀa‖² − 2 ‖aᵀb‖² + ‖bᵀb‖² ,

  where ‖·‖² is the sum of the squares of the entries.  It follows from the single exchange of finite sums

      ∑_i ∑_j ⟨a_i, a_j⟩ ⟨u_i, u_j⟩  =  ∑_c ∑_d ( ∑_n a_nc u_nd )² ,

  used with (a, a), (a, b) and (b, b).  Over the extended reals distributivity fails at the infinities, so the identity
  is carried there only for matrices whose entries are real numbers; the second theorem shows that the normalized
  pooled rows of a real array are such matrices: a block mean of reals is real, the square root of a sum of squares
  of reals is a nonnegative real, its maximum with the positive real ε is a positive real, and the quotient of a
  real by a nonzero real is real.
-/
import proofs.«122906_j61263413510181_2_alg».proof.Proof.Spec
import proofs.«122906_j61263413510181_2_alg».proof.Proof.LibMoments

noncomputable section

namespace Cert.RegionLoss

open Idealize.ShloMosaic Idealize.ShloMosaic.ValueIdx

/-! ## The identity over the reals -/

/-- The exchange of sums: ∑_ij ⟨a_i, a_j⟩ ⟨u_i, u_j⟩ = ∑_cd (∑_n a_nc u_nd)².  Both sides are the sum over
    i, j, c, d of a_ic u_id · a_jc u_jd. -/
theorem cross_real {ι κ : Type*} [Fintype ι] [Fintype κ] (a u : ι → κ → ℝ) :
    ∑ i, ∑ j, (∑ c, a i c * a j c) * (∑ d, u i d * u j d)
      = ∑ c, ∑ d, (∑ n, a n c * u n d) * (∑ n, a n c * u n d) := by
  calc ∑ i, ∑ j, (∑ c, a i c * a j c) * (∑ d, u i d * u j d)
      = ∑ i, ∑ j, ∑ c, ∑ d, (a i c * u i d) * (a j c * u j d) := by
        refine Finset.sum_congr rfl fun i _ => Finset.sum_congr rfl fun j _ => ?_
        rw [Finset.sum_mul]
        refine Finset.sum_congr rfl fun c _ => ?_
        rw [Finset.mul_sum]
        exact Finset.sum_congr rfl fun d _ => by ring
    _ = ∑ i, ∑ c, ∑ j, ∑ d, (a i c * u i d) * (a j c * u j d) :=
        Finset.sum_congr rfl fun i _ => Finset.sum_comm
    _ = ∑ c, ∑ i, ∑ j, ∑ d, (a i c * u i d) * (a j c * u j d) := Finset.sum_comm
    _ = ∑ c, ∑ i, ∑ d, ∑ j, (a i c * u i d) * (a j c * u j d) :=
        Finset.sum_congr rfl fun c _ => Finset.sum_congr rfl fun i _ => Finset.sum_comm
    _ = ∑ c, ∑ d, ∑ i, ∑ j, (a i c * u i d) * (a j c * u j d) :=
        Finset.sum_congr rfl fun c _ => Finset.sum_comm
    _ = ∑ c, ∑ d, (∑ n, a n c * u n d) * (∑ n, a n c * u n d) := by
        refine Finset.sum_congr rfl fun c _ => Finset.sum_congr rfl fun d _ => ?_
        rw [Finset.sum_mul]
        exact Finset.sum_congr rfl fun i _ => (Finset.mul_sum _ _ _).symm

/-- The sum over all pairs of rows of the squared difference of the two similarities, through the three Gram
    matrices: expand the square and exchange the sums in each of the three terms. -/
theorem pairs_real {ι κ : Type*} [Fintype ι] [Fintype κ] (a b : ι → κ → ℝ) :
    ∑ i, ∑ j, ((∑ c, a i c * a j c) - (∑ c, b i c * b j c)) * ((∑ c, a i c * a j c) - (∑ c, b i c * b j c))
      = (∑ c, ∑ d, (∑ n, a n c * a n d) * (∑ n, a n c * a n d))
        - 2 * (∑ c, ∑ d, (∑ n, a n c * b n d) * (∑ n, a n c * b n d))
        + (∑ c, ∑ d, (∑ n, b n c * b n d) * (∑ n, b n c * b n d)) := by
  rw [← cross_real a a, ← cross_real a b, ← cross_real b b, Finset.mul_sum, ← Finset.sum_sub_distrib,
    ← Finset.sum_add_distrib]
  refine Finset.sum_congr rfl fun i _ => ?_
  rw [Finset.mul_sum, ← Finset.sum_sub_distrib, ← Finset.sum_add_distrib]
  exact Finset.sum_congr rfl fun j _ => by ring

/-! ## The float words of the closed form -/

/-- The word of 2.0 is the real two. -/
theorem ofBits_two : Ideal.ofBits .f32 0x40000000#32 = ((2 : ℝ) : EReal) := by
  simp [Ideal.ofBits, Ideal.ieee, -EReal.coe_mul]; norm_num

/-- The word of 8192² = 2²⁶ is the real 67108864. -/
theorem ofBits_count : Ideal.ofBits .f32 0x4C800000#32 = ((67108864 : ℝ) : EReal) := by
  simp [Ideal.ofBits, Ideal.ieee, -EReal.coe_mul]; norm_num

/-- The word of ε (1e-8 in f32) is a positive real, 11258999 · 2⁻⁵⁰. -/
theorem ofBits_eps : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]

/-! ## The closed form equals the mean over pairs -/

/-- A Gram matrix of two real matrices is a real matrix. -/
theorem gram_coe (a b : Fin 8192 → Fin 64 → ℝ) :
    gram (fun n c => (a n c : EReal)) (fun n c => (b n c : EReal))
      = fun c d => ((∑ n, a n c * b n d : ℝ) : EReal) := by
  funext c d
  unfold gram
  rw [Moments.coe_sum]
  exact Finset.sum_congr rfl fun n _ => (EReal.coe_mul _ _).symm

/-- The squared Frobenius norm of a real matrix is real. -/
theorem sumSq_coe (G : Fin 64 → Fin 64 → ℝ) :
    sumSq (fun c d => (G c d : EReal)) = ((∑ c, ∑ d, G c d * G c d : ℝ) : EReal) := by
  unfold sumSq
  rw [Moments.coe_sum]
  refine Finset.sum_congr rfl fun c _ => ?_
  rw [Moments.coe_sum]
  exact Finset.sum_congr rfl fun d _ => (EReal.coe_mul _ _).symm

/-- A similarity of two rows of a real matrix is real. -/
theorem sim_coe (a : Fin 8192 → Fin 64 → ℝ) (i j : Fin 8192) :
    sim (fun n c => (a n c : EReal)) i j = ((∑ c, a i c * a j c : ℝ) : EReal) := by
  unfold sim
  rw [Moments.coe_sum]
  exact Finset.sum_congr rfl fun c _ => (EReal.coe_mul _ _).symm

theorem loss_eq (X₁ X₂ : Fin 8192 → Fin 64 → EReal)
    (h₁ : ∀ n c, ∃ r : ℝ, X₁ n c = (r : EReal)) (h₂ : ∀ n c, ∃ r : ℝ, X₂ n c = (r : EReal)) :
    lossGram X₁ X₂ = lossPairs X₁ X₂ := by
  choose a ha using h₁
  choose b hb using h₂
  obtain rfl : X₁ = fun n c => (a n c : EReal) := funext fun n => funext fun c => ha n c
  obtain rfl : X₂ = fun n c => (b n c : EReal) := funext fun n => funext fun c => hb n c
  unfold lossGram lossPairs
  rw [gram_coe, gram_coe, gram_coe, sumSq_coe, sumSq_coe, sumSq_coe, ofBits_two, ofBits_count,
    ← EReal.coe_mul, ← EReal.coe_sub, ← EReal.coe_add]
  have hp : (∑ i : Fin 8192, ∑ j : Fin 8192,
        (sim (fun n c => (a n c : EReal)) i j - sim (fun n c => (b n c : EReal)) i j)
          * (sim (fun n c => (a n c : EReal)) i j - sim (fun n c => (b n c : EReal)) i j))
      = ((∑ i : Fin 8192, ∑ j : Fin 8192,
          ((∑ c, a i c * a j c) - (∑ c, b i c * b j c)) * ((∑ c, a i c * a j c) - (∑ c, b i c * b j c)) : ℝ) : EReal) := by
    rw [Moments.coe_sum]
    refine Finset.sum_congr rfl fun i _ => ?_
    rw [Moments.coe_sum]
    refine Finset.sum_congr rfl fun j _ => ?_
    rw [sim_coe, sim_coe, ← EReal.coe_sub, ← EReal.coe_mul]
  rw [hp, pairs_real a b]

/-! ## The normalized rows of a real array are real -/

/-- The pooled value of a slab of reals is real: a finite sum of reals times the real 1/16. -/
theorem pooled_real (y : Slab) (hy : ∀ c h w, Moments.Fin' (y c h w)) (s : Fin 1024) (c : Fin 64) :
    Moments.Fin' (pooled y s c) := by
  unfold pooled blockSum
  refine Moments.Fin'.mul ?_ (Moments.Fin'.coe _)
  exact Moments.Fin'.sum _ _ fun kh _ => Moments.Fin'.sum _ _ fun kw _ => hy _ _ _

/-- The guarded norm of a pooled row of reals is a positive real: the square root of a sum of squares of reals is a
    nonnegative real, and its maximum with the positive real ε is at least ε. -/
theorem rowNorm_pos (y : Slab) (hy : ∀ c h w, Moments.Fin' (y c h w)) (s : Fin 1024) :
    ∃ r : ℝ, 0 < r ∧ rowNorm y s = (r : EReal) := by
  choose p hp using fun c => pooled_real y hy s c
  obtain ⟨e, he, hε⟩ := ofBits_eps
  have hS : (∑ c : Fin 64, pooled y s c * pooled y s c) = ((∑ c : Fin 64, p c * p c : ℝ) : EReal) := by
    rw [Moments.coe_sum]
    exact Finset.sum_congr rfl fun c _ => by rw [hp c, ← EReal.coe_mul]
  have h0 : ¬ (∑ c : Fin 64, p c * p c) < 0 := not_lt.mpr (Finset.sum_nonneg fun c _ => mul_self_nonneg (p c))
  refine ⟨max (Real.sqrt (∑ c : Fin 64, p c * p c)) e, lt_of_lt_of_le he (le_max_right _ _), ?_⟩
  unfold rowNorm
  rw [hS, Ideal.sqrt_coe, if_neg h0, hε]
  exact (EReal.coe_strictMono.monotone.map_max).symm

theorem unitRow_real (x : ArgIdx → EReal) (hx : ∀ i, ∃ r : ℝ, x i = (r : EReal)) (n : Fin 8192) (c : Fin 64) :
    ∃ r : ℝ, unitRow x n c = (r : EReal) := by
  have hy : ∀ (b : Fin 8) c h w, Moments.Fin' (slab x b c h w) := fun b c h w => hx _
  unfold unitRow unit
  obtain ⟨r, hr, hN⟩ := rowNorm_pos _ (hy ⟨n.val / 1024, by omega⟩) ⟨n.val % 1024, by omega⟩
  rw [hN]
  exact Moments.Fin'.div (pooled_real _ (hy _) _ _) hr.ne'

end Cert.RegionLoss

end
-- ==== Proof.FiniteInputs.lean ====
/-
  What the precondition says of the two argument arrays: every entry is a real number.

  The precondition is the conjunction of two tests, one per argument, each "for all entries x, |x| < +∞", written as a
  reduction by "and" over all four axes of the array of comparisons.  The conjunction being 1, both reductions are 1;
  a reduction by "and" onto a single result that is 1 had a 1 at every entry; and over the extended reals the
  comparison |x| < +∞, with |x| = max(x, −x), fails at both infinities (there |x| = +∞) and so holds only at a real.
-/
import proofs.«122906_j61263413510181_2_alg».proof.Pre_finite_inputs
import Idealize.ShloMosaic.Lib.ReduceAll
import Idealize.ShloMosaic.PureOps.Ideal
import Idealize.ShloMosaic.PureOps.Ideal.Laws
import Idealize.ShloMosaic.Lib.ValueIdx

noncomputable section

namespace Cert.RegionLoss.Finite

open Idealize.ShloMosaic

/-- The result of a reduction over all axes has exactly one index. -/
instance : Subsingleton Cert.Pre_finite_inputs.S_.Idx := ⟨fun a b => funext fun d => d.elim0⟩

/-- The word 0x7F800000 denotes plus infinity. -/
theorem ofBits_inf : Ideal.ofBits .f32 0x7F800000#32 = (⊤ : EReal) := by
  simp [Ideal.ofBits, Ideal.ieee]

/-- An extended real whose absolute value max(x, −x) compares below plus infinity is a real: at ⊥ and at ⊤ the
    absolute value is ⊤, which is not below ⊤. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem finite_of_pre [Cert.Pre_finite_inputs.Facts] (x0 x1 : FVec Ideal Cert.Pre_finite_inputs.S8x64x128x128 .f32)
    (hpre : Cert.Pre_finite_inputs.fn (F := Ideal) x0 x1 = fun _ => 1#1) :
    (∀ i, ∃ r : ℝ, x0 i = (r : EReal)) ∧ (∀ i, ∃ r : ℝ, x1 i = (r : EReal)) := by
  have h := congrFun hpre ValueIdx.ix0
  unfold Cert.Pre_finite_inputs.fn at h
  dsimp only at h
  obtain ⟨ha, hb⟩ := IntOp.andi_eq_one.1 h
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.RegionLoss.Finite

end
-- ==== Proof.RefValue.lean ====
/-
  The value of the reference program, read down to its two argument arrays.

  From an argument `x` of shape [8, 64, 128, 128] the reference casts to [8, 64, 32, 4, 32, 4] and sums out the two axes of
  length 4: at `(b, c, sh, sw)` that is the sum of the 4 × 4 block `x[b, c, 4·sh + kh, 4·sw + kw]`, because the indices
  that lose their coordinates `kh`, `kw` to `(b, c, sh, sw)` are exactly the sixteen `(b, c, sh, kh, sw, kw)`, and the cast
  keeps row-major positions: `((((b·64 + c)·32 + sh)·4 + kh)·32 + sw)·4 + kw = ((b·64 + c)·128 + (4·sh + kh))·128 + (4·sw + kw)`.
  Division by the word of 16 is multiplication by 1/16 on every extended real, so the next stage is the pooled value.
  The two reshapes and the transpose between them place batch `n / 1024`, pooled pixel `n % 1024` in row `n` of an
  8192 × 64 matrix; the row is divided by `max(√(∑ squares), ε)`, which is `unitRow`; the product with the transpose is
  `sim`; and the total sum of the squared differences over the rank-2 index set is the double sum over the two
  coordinates, which is `lossPairs`. The second argument goes through the same operations, so its similarity matrix is
  the same function of its argument. No finiteness is used: every step is a reading at an index or a re-indexing of a
  finite sum in the extended reals.
-/
import proofs.«122906_j61263413510181_2_alg».proof.Proof.Spec
import proofs.«122906_j61263413510181_2_alg».proof.Proof.Gen.ReferenceIdeal.Read
import Idealize.ShloMosaic.Lib.ValueIdxRank6

noncomputable section

namespace Cert.RegionLoss.Ref

open Idealize.ShloMosaic Idealize.ShloMosaic.ValueIdx Cert.ReferenceIdeal Cert.ReferenceIdeal.Read

/-- Summing out axes 3 and 5 sends a rank-6 index to its four other coordinates. -/
theorem drop35 (h : S8x64x32x4x32x4.ReducesTo [3, 5] S8x64x32x32) (b : Fin 8) (c : Fin 64) (sh : Fin 32) (kh : Fin 4)
    (sw : Fin 32) (kw : Fin 4) : h.drop (ix6 b c sh kh sw kw) = ix4 b c sh sw := by
  funext a
  refine Fin.ext ?_
  match a with
  | ⟨0, _⟩ => exact h.drop_apply_val_of_eq _ 0 0
  | ⟨1, _⟩ => exact h.drop_apply_val_of_eq _ 1 1
  | ⟨2, _⟩ => exact h.drop_apply_val_of_eq _ 2 2
  | ⟨3, _⟩ => exact h.drop_apply_val_of_eq _ 3 4

/-- Conversely, an index that drops to `(b, c, sh, sw)` has those four coordinates. -/
theorem eq_of_drop35 (h : S8x64x32x4x32x4.ReducesTo [3, 5] S8x64x32x32) (b : Fin 8) (c : Fin 64) (sh sw : Fin 32)
    (i : S8x64x32x4x32x4.Idx) (hi : h.drop i = ix4 b c sh sw) : ix6 b c sh (i 3) sw (i 5) = i := by
  have e0 : (i 0).val = b.val := (h.drop_apply_val_of_eq i 0 0).symm.trans (congrArg (fun j : S8x64x32x32.Idx => (j 0).val) hi)
  have e1 : (i 1).val = c.val := (h.drop_apply_val_of_eq i 1 1).symm.trans (congrArg (fun j : S8x64x32x32.Idx => (j 1).val) hi)
  have e2 : (i 2).val = sh.val := (h.drop_apply_val_of_eq i 2 2).symm.trans (congrArg (fun j : S8x64x32x32.Idx => (j 2).val) hi)
  have e4 : (i 4).val = sw.val := (h.drop_apply_val_of_eq i 3 4).symm.trans (congrArg (fun j : S8x64x32x32.Idx => (j 3).val) hi)
  funext a
  refine Fin.ext ?_
  match a with
  | ⟨0, _⟩ => exact e0.symm
  | ⟨1, _⟩ => exact e1.symm
  | ⟨2, _⟩ => exact e2.symm
  | ⟨3, _⟩ => rfl
  | ⟨4, _⟩ => exact e4.symm
  | ⟨5, _⟩ => rfl

/-- The indices that drop to `(b, c, sh, sw)`, summed, are the 4 × 4 pairs of the two summed coordinates, summed. -/
theorem sum_filter_drop35 (h : S8x64x32x4x32x4.ReducesTo [3, 5] S8x64x32x32) (x : S8x64x32x4x32x4.Idx → EReal)
    (b : Fin 8) (c : Fin 64) (sh sw : Fin 32) :
    ∑ i ∈ Finset.univ.filter (fun i => h.drop i = ix4 b c sh sw), x i
      = ∑ kh : Fin 4, ∑ kw : Fin 4, x (ix6 b c sh kh sw kw) := by
  rw [← Fintype.sum_prod_type' (f := fun (kh kw : Fin 4) => x (ix6 b c sh kh sw kw))]
  refine Finset.sum_nbij' (fun i => ((i 3 : Fin 4), (i 5 : Fin 4))) (fun p => ix6 b c sh p.1 sw p.2) ?_ ?_ ?_ ?_ ?_
  · intro i _; exact Finset.mem_univ _
  · intro p _; exact Finset.mem_filter.2 ⟨Finset.mem_univ _, drop35 h b c sh p.1 sw p.2⟩
  · intro i hi; exact eq_of_drop35 h b c sh sw i (Finset.mem_filter.1 hi).2
  · intro p _; rfl
  · intro i hi; exact congrArg x (eq_of_drop35 h b c sh sw i (Finset.mem_filter.1 hi).2).symm

/-- The cast of an array [8, 64, 128, 128] to [8, 64, 32, 4, 32, 4], read at `(b, c, sh, kh, sw, kw)`: the array at
    pixel `(4·sh + kh, 4·sw + kw)` of channel `c` of batch entry `b` (the two row-major positions agree). -/
theorem cast6_apply (h : S8x64x128x128.ShapeCasts S8x64x32x4x32x4) (x : ArgIdx → EReal) (b : Fin 8) (c : Fin 64)
    (sh : Fin 32) (kh : Fin 4) (sw : Fin 32) (kw : Fin 4) :
    shapeCast S8x64x32x4x32x4 x h (ix6 b c sh kh sw kw) = x (ix4 b c (cell sh kh) (cell sw kw)) := by
  refine shapeCast_apply x h _ _ ?_
  rewrite [Shape.rowMajor_val_four, Shape.rowMajor_val_six]
  have hb := b.isLt; have hc := c.isLt; have hsh := sh.isLt; have hkh := kh.isLt; have hsw := sw.isLt; have hkw := kw.isLt
  show ((b.val * 64 + c.val) * 128 + (sh.val * 4 + kh.val)) * 128 + (sw.val * 4 + kw.val)
    = ((((b.val * 64 + c.val) * 32 + sh.val) * 4 + kh.val) * 32 + sw.val) * 4 + kw.val
  omega

/-- The sum over the two cell axes of the cast array is the 4 × 4 block sum of the slab. -/
theorem v1_apply (x0 : ArgIdx → EReal) (b : Fin 8) (c : Fin 64) (sh sw : Fin 32) :
    val_main_v1 (F := Ideal) x0 (ix4 b c sh sw) = blockSum (slab x0 b) c sh sw := by
  unfold val_main_v1 val_main_v0
  simp only [Host.reduceAdd, Ideal.hostReduceAdd_def]
  unfold Ideal.hostReduceAdd
  rw [sum_filter_drop35, val_main_cst_apply, Ideal.ofBits_def, Ideal.ofBits_zero_f32, zero_add]
  unfold blockSum slab
  exact Finset.sum_congr rfl fun kh _ => Finset.sum_congr rfl fun kw _ => cast6_apply _ x0 b c sh kh sw kw

/-- The f32 word `0x41800000` is the real 16. -/
theorem ofBits_sixteen : Ideal.ofBits .f32 0x41800000#32 = ((16 : ℝ) : EReal) := by
  simp [Ideal.ofBits, Ideal.ieee, -EReal.coe_mul]; norm_num

/-- Dividing the block sum by 16 is multiplying it by 1/16: the block's mean. -/
theorem v3_apply (x0 : ArgIdx → EReal) (b : Fin 8) (c : Fin 64) (sh sw : Fin 32) :
    val_main_v3 (F := Ideal) x0 (ix4 b c sh sw) = blockSum (slab x0 b) c sh sw * ((1 / 16 : ℝ) : EReal) := by
  rw [val_main_v3_apply, val_main_v2_apply, val_main_cst_0_apply, v1_apply, Ideal.hostDivf_def, Ideal.ofBits_def,
    ofBits_sixteen]
  exact Ideal.div_coe (by norm_num) _

/-- Row `n`, column `c` of the 8192 × 64 matrix sits at batch `n / 1024`, pooled pixel `n % 1024`, channel `c` … -/
theorem idx6_eq (n : Fin 8192) (c : Fin 64) :
    idx_main_v6 (ix2 n c) = ix3 (⟨n.val / 1024, by omega⟩ : Fin 8) (⟨n.val % 1024, by omega⟩ : Fin 1024) c := by
  have hn := n.isLt; have hc := c.isLt
  funext a
  refine Fin.ext ?_
  match a with
  | ⟨0, _⟩ => show (n.val * 64 + c.val) / 65536 = n.val / 1024; omega
  | ⟨1, _⟩ => show (n.val * 64 + c.val) / 64 % 1024 = n.val % 1024; omega
  | ⟨2, _⟩ => show (n.val * 64 + c.val) % 64 = c.val; omega

/-- … the transpose exchanges the pixel and channel axes … -/
theorem idx5_eq (b : Fin 8) (s : Fin 1024) (c : Fin 64) : idx_main_v5 (ix3 b s c) = ix3 b c s := by
  funext a
  match a with
  | ⟨0, _⟩ => rfl
  | ⟨1, _⟩ => rfl
  | ⟨2, _⟩ => rfl

/-- … and pooled pixel `s` is position `(s / 32, s % 32)` of the 32 × 32 grid. -/
theorem idx4_eq (b : Fin 8) (c : Fin 64) (s : Fin 1024) :
    idx_main_v4 (ix3 b c s) = ix4 b c (⟨s.val / 32, by omega⟩ : Fin 32) (⟨s.val % 32, by omega⟩ : Fin 32) := by
  have hb := b.isLt; have hc := c.isLt; have hs := s.isLt
  funext a
  refine Fin.ext ?_
  match a with
  | ⟨0, _⟩ => show ((b.val * 64 + c.val) * 1024 + s.val) / 65536 = b.val; omega
  | ⟨1, _⟩ => show ((b.val * 64 + c.val) * 1024 + s.val) / 1024 % 64 = c.val; omega
  | ⟨2, _⟩ => show ((b.val * 64 + c.val) * 1024 + s.val) / 32 % 32 = s.val / 32; omega
  | ⟨3, _⟩ => show ((b.val * 64 + c.val) * 1024 + s.val) % 32 = s.val % 32; omega

/-- The rows before normalization: entry `(n, c)` is the pooled value of batch `n / 1024` at pixel `n % 1024`. -/
theorem v6_apply (x0 : ArgIdx → EReal) (n : Fin 8192) (c : Fin 64) :
    val_main_v6 (F := Ideal) x0 (ix2 n c) = pooled (slab x0 ⟨n.val / 1024, by omega⟩) ⟨n.val % 1024, by omega⟩ c := by
  rw [val_main_v6_apply, idx6_eq, val_main_v5_apply, idx5_eq, val_main_v4_apply, idx4_eq, v3_apply]
  rfl

/-- The index maps of the normalization chain, at literal coordinates. -/
theorem idx8_eq (n : Fin 8192) (k : Fin 64) : idx_main_v8 (ix1 n) k = ix2 n k := by
  funext a
  match a with
  | ⟨0, _⟩ => rfl
  | ⟨1, _⟩ => rfl

theorem idx9_eq (n : Fin 8192) (z : Fin 1) : idx_main_v9 (ix2 n z) = ix1 n := by
  funext a
  match a with
  | ⟨0, _⟩ => rfl

theorem idx13_eq (n : Fin 8192) (c : Fin 64) : idx_main_v13 (ix2 n c) = ix2 n (⟨0, Nat.one_pos⟩ : Fin 1) := by
  funext a
  match a with
  | ⟨0, _⟩ => rfl
  | ⟨1, _⟩ => rfl

/-- The normalized rows: entry `(n, c)` is the pooled row `n` divided by `max(‖row‖₂, ε)`. -/
theorem v14_apply (x0 : ArgIdx → EReal) (n : Fin 8192) (c : Fin 64) :
    val_main_v14 (F := Ideal) x0 (ix2 n c) = unitRow x0 n c := by
  rw [val_main_v14_apply, val_main_v13_apply, idx13_eq, val_main_v12_apply, val_main_v11_apply, val_main_cst_2_apply,
    val_main_v10_apply, val_main_v9_apply, idx9_eq, val_main_v8_apply, val_main_cst_1_apply, v6_apply]
  simp only [Ideal.hostDivf_def, Ideal.maximumf_def, Ideal.hostUnary_sqrt_def, Ideal.ofBits_def, Ideal.ofBits_zero_f32,
    zero_add]
  unfold unitRow unit rowNorm
  refine congrArg (fun t => Ideal.div _ (max (Ideal.sqrt t) _)) (Finset.sum_congr rfl fun k _ => ?_)
  rw [idx8_eq, val_main_v7_apply, v6_apply, Ideal.mulf_def]

/-- The index maps of the product of the row matrix with its transpose. -/
theorem lidx16_eq (i j : Fin 8192) (k : Fin 64) : lidx_main_v16 (ix2 i j) k = ix2 i k := by
  funext a
  match a with
  | ⟨0, _⟩ => rfl
  | ⟨1, _⟩ => rfl

theorem ridx16_eq (i j : Fin 8192) (k : Fin 64) : ridx_main_v16 (ix2 i j) k = ix2 k j := by
  funext a
  match a with
  | ⟨0, _⟩ => rfl
  | ⟨1, _⟩ => rfl

theorem idx15_eq (k : Fin 64) (j : Fin 8192) : idx_main_v15 (ix2 k j) = ix2 j k := by
  funext a
  match a with
  | ⟨0, _⟩ => rfl
  | ⟨1, _⟩ => rfl

/-- The similarity matrix: entry `(i, j)` is the inner product of the normalized rows `i` and `j`. -/
theorem v16_apply (x0 : ArgIdx → EReal) (i j : Fin 8192) :
    val_main_v16 (F := Ideal) x0 (ix2 i j) = sim (unitRow x0) i j := by
  rw [val_main_v16_apply]
  unfold sim
  refine Finset.sum_congr rfl fun k _ => ?_
  rw [lidx16_eq, ridx16_eq, val_main_v15_apply, idx15_eq, v14_apply, v14_apply]

/-- The second argument goes through the same operations as the first: its similarity matrix is the same function of
    its argument. -/
theorem v33_eq (x : ArgIdx → EReal) : val_main_v33 (F := Ideal) x = val_main_v16 (F := Ideal) x := rfl

/-- The reference's value: the mean over all pairs of rows of the squared difference of the two similarities. -/
theorem ref_value (x0 x1 : (⟨Cert.ReferenceIdeal.S8x64x128x128, .f32⟩ : BufTy).Contents (Elt Ideal)) (i : Cert.ReferenceIdeal.S_.Idx) :
    Cert.ReferenceIdeal.Read.val_main_v37 (F := Ideal) x0 x1 i = Cert.RegionLoss.lossPairs (Cert.RegionLoss.unitRow x0) (Cert.RegionLoss.unitRow x1) := by
  rw [val_main_v37_apply, val_main_v36_apply, val_main_cst_7_apply, val_main_cst_8_apply]
  simp only [Ideal.hostDivf_def, Ideal.ofBits_def, Ideal.ofBits_zero_f32, zero_add]
  unfold lossPairs
  refine congrArg (fun t => Ideal.div t _) ?_
  refine (sum_idx2 _).trans ?_
  refine Finset.sum_congr rfl fun a _ => Finset.sum_congr rfl fun b _ => ?_
  rw [val_main_v35_apply, val_main_v34_apply, v33_eq, v16_apply, v16_apply, Ideal.mulf_def, Ideal.subf_def]

end Cert.RegionLoss.Ref

end
-- ==== Proof.KernelRun.lean ====
/-
  The idealized kernel's whole run, with its result named.

  The program is two kernel launches between stretches of host operations: the pooling kernel writes the two matrices of
  normalized rows, the host flattens each from [8, 1024, 64] to [8192, 64], the second kernel writes three 64 × 64
  products, and fifteen host operations reduce them to one number.  Every weakly fair execution terminates with the
  result buffer at the last stretch's value of what the second kernel left, and with the two arguments unchanged.
-/
import proofs.«122906_j61263413510181_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last host stretch computes from what the second kernel left, and the argument arrays as launched. -/
theorem run_main : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c)⟩)

end Cert.KernelIdeal.RunValue

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.PoolPayload.lean ====
/-
  The pooling-and-normalizing kernel's two stored values, read at one element.

  From one batch entry `x` of shape [1, 64, 128, 128] the kernel forms the 1024 × 64 matrix of pooled rows: the width is
  split into 32 cells of 4 and each cell summed, the height likewise, the sums are multiplied by 1/16, the channel axis
  is rotated last and the two pooled axes are merged, so that row `s = sh·32 + sw` holds in column `c` the mean of the
  4 × 4 block `x[0, c, 4·sh .. 4·sh+3, 4·sw .. 4·sw+3]`.  Each row is then divided by `max(‖row‖₂, ε)`: the row's squares
  are summed along the lanes, the sums kept as a column, their square roots guarded below by ε, and the column is
  broadcast back beside every entry of its row.  Read at `(0, s, c)` the result is the specification's `unit` of the
  batch entry at row `s` and channel `c`.  The second output's value is the same chain of operations, stated over the
  rows and the guarded norms as separate values.
-/
import proofs.«122906_j61263413510181_2_alg».proof.Proof.Spec
import proofs.«122906_j61263413510181_2_alg».proof.Proof.Gen.KernelIdeal.Skeleton
import proofs.«122906_j61263413510181_2_alg».proof.Proof.LibRowReduce
import proofs.«122906_j61263413510181_2_alg».proof.Proof.LibKeepdimsColumn
import proofs.«122906_j61263413510181_2_alg».proof.Proof.LibFlattenBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.RegionLoss.Pool

open Idealize.ShloMosaic Idealize.ShloMosaic.ValueIdx
open Cert.KernelIdeal Cert.KernelIdeal.Gen

/-! ## The constant -/

/-- The f32 word `0x3D800000` denotes the real number 1/16. -/
theorem ofBits_sixteenth : Ideal.ofBits .f32 0x3D800000#32 = ((1 / 16 : ℝ) : EReal) := by
  simp [Ideal.ofBits, Ideal.ieee, -EReal.coe_mul]; norm_num

/-! ## Sums over one axis of a rank-4 array -/

section Reduce4
variable {a b c d : ℕ}

/-- The index a reduction over the last axis reads at `(p, q, r)` and position `k` is `(p, q, r, k)`. -/
theorem lift3_eq (h : (⟨4, ![a, b, c, d]⟩ : Shape).Reduces [3] ⟨3, ![a, b, c]⟩) (p : Fin a) (q : Fin b) (r : Fin c)
    (k : Fin d) : h.lift (ix3 p q r) k = ix4 p q r k :=
  funext fun ax => Fin.ext (by match ax with | ⟨0, _⟩ => rfl | ⟨1, _⟩ => rfl | ⟨2, _⟩ => rfl | ⟨3, _⟩ => rfl)

/-- A sum over the last axis of an [a, b, c, d] array, at `(p, q, r)`: the sum of the d entries `(p, q, r, k)`. -/
theorem sum3_at (src : FVec Ideal ⟨4, ![a, b, c, d]⟩ .f32) (acc : BitVec 32)
    (h : (⟨4, ![a, b, c, d]⟩ : Shape).Reduces [3] ⟨3, ![a, b, c]⟩) (hφ : FKind.Formats .f32)
    (hacc : acc = FKind.add.neutral .f32 hφ) (p : Fin a) (q : Fin b) (r : Fin c) :
    multiReduction .add [3] ⟨3, ![a, b, c]⟩ src acc h hφ hacc (ix3 p q r) = ∑ k : Fin d, src (ix4 p q r k) :=
  (Ideal.multiReduction_add_single src acc h hφ hacc (ix3 p q r)).trans
    (Finset.sum_congr rfl fun k _ => congrArg src (lift3_eq h p q r k))

/-- The index a reduction over axis 2 reads at `(p, q, r)` and position `k` is `(p, q, k, r)`. -/
theorem lift2_eq (h : (⟨4, ![a, b, c, d]⟩ : Shape).Reduces [2] ⟨3, ![a, b, d]⟩) (p : Fin a) (q : Fin b) (r : Fin d)
    (k : Fin c) : h.lift (ix3 p q r) k = ix4 p q k r :=
  funext fun ax => Fin.ext (by match ax with | ⟨0, _⟩ => rfl | ⟨1, _⟩ => rfl | ⟨2, _⟩ => rfl | ⟨3, _⟩ => rfl)

/-- A sum over axis 2 of an [a, b, c, d] array, at `(p, q, r)`: the sum of the c entries `(p, q, k, r)`. -/
theorem sum2_at (src : FVec Ideal ⟨4, ![a, b, c, d]⟩ .f32) (acc : BitVec 32)
    (h : (⟨4, ![a, b, c, d]⟩ : Shape).Reduces [2] ⟨3, ![a, b, d]⟩) (hφ : FKind.Formats .f32)
    (hacc : acc = FKind.add.neutral .f32 hφ) (p : Fin a) (q : Fin b) (r : Fin d) :
    multiReduction .add [2] ⟨3, ![a, b, d]⟩ src acc h hφ hacc (ix3 p q r) = ∑ k : Fin c, src (ix4 p q k r) :=
  (Ideal.multiReduction_add_single src acc h hφ hacc (ix3 p q r)).trans
    (Finset.sum_congr rfl fun k _ => congrArg src (lift2_eq h p q r k))

end Reduce4

/-! ## The shape casts that split an axis into cells of four, and the transpose -/

section Layout
variable {α : Type}

/-- A [64, 128, 128] array with its last axis split into 32 cells of 4 reads, at `(p, q, r, k)`, the operand at
    `(p, q, 4·r + k)`: both sit at the same row-major position. -/
theorem splitLast_apply (x : (⟨3, ![64, 128, 128]⟩ : Shape).Idx → α)
    (h : (⟨3, ![64, 128, 128]⟩ : Shape).ShapeCasts ⟨4, ![64, 128, 32, 4]⟩)
    (p : Fin 64) (q : Fin 128) (r : Fin 32) (k : Fin 4) (m : Fin 128) (hm : m.val = r.val * 4 + k.val) :
    shapeCast ⟨4, ![64, 128, 32, 4]⟩ x h (ix4 p q r k) = x (ix3 p q m) :=
  shapeCast_apply x h _ _ (by
    rw [Shape.rowMajor_val_three, Shape.rowMajor_val_four]
    show (p.val * 128 + q.val) * 128 + m.val = ((p.val * 128 + q.val) * 32 + r.val) * 4 + k.val
    omega)

/-- A [64, 128, 32] array with its middle axis split into 32 cells of 4 reads, at `(p, q, k, r)`, the operand at
    `(p, 4·q + k, r)`. -/
theorem splitMiddle_apply (x : (⟨3, ![64, 128, 32]⟩ : Shape).Idx → α)
    (h : (⟨3, ![64, 128, 32]⟩ : Shape).ShapeCasts ⟨4, ![64, 32, 4, 32]⟩)
    (p : Fin 64) (q : Fin 32) (k : Fin 4) (r : Fin 32) (m : Fin 128) (hm : m.val = q.val * 4 + k.val) :
    shapeCast ⟨4, ![64, 32, 4, 32]⟩ x h (ix4 p q k r) = x (ix3 p m r) :=
  shapeCast_apply x h _ _ (by
    rw [Shape.rowMajor_val_three, Shape.rowMajor_val_four]
    show (p.val * 128 + m.val) * 32 + r.val = ((p.val * 32 + q.val) * 4 + k.val) * 32 + r.val
    omega)

/-- A [n0, n1, n2] array with its axes rotated to [n1, n2, n0] reads, at `(i, j, c)`, the operand at `(c, i, j)`. -/
theorem rotate_apply {n0 n1 n2 : ℕ} (x : (⟨3, ![n0, n1, n2]⟩ : Shape).Idx → α)
    (h : (⟨3, ![n0, n1, n2]⟩ : Shape).Transposes [1, 2, 0] ⟨3, ![n1, n2, n0]⟩) (i : Fin n1) (j : Fin n2) (c : Fin n0) :
    transpose ⟨3, ![n1, n2, n0]⟩ [1, 2, 0] x h (ix3 i j c) = x (ix3 c i j) :=
  transpose_apply _ x h _ _ fun e => match e with | ⟨0, _⟩ => rfl | ⟨1, _⟩ => rfl | ⟨2, _⟩ => rfl

end Layout

/-! ## The pooled rows -/

/-- The pooled rows of one batch entry: row `s = sh·32 + sw`, column `c` holds the mean of the 4 × 4 block of channel
    `c` at pooled position `(sh, sw)`.  Read from the inside out: drop the unit axis, split the width into cells of 4
    and sum each cell, split the height into cells of 4 and sum each cell, multiply by 1/16, rotate the channel axis
    last, and merge the two pooled axes into the row. -/
theorem pay3_at (x : Vec Ideal S1x64x128x128 .f32) (s : Fin 1024) (c : Fin 64) :
    k0_pay3 (F := Ideal) x (ix2 s c) = pooled (fun c h w => x (ix4 (0 : Fin 1) c h w)) s c := by
  unfold k0_pay3
  refine (Cert.LibFlattenBroadcast.shapeCast_abc_nc_apply _ _
    (⟨s.val / 32, by omega⟩ : Fin 32) (⟨s.val % 32, by omega⟩ : Fin 32) c s
    (by show s.val = s.val / 32 * 32 + s.val % 32; omega)).trans ?_
  refine (rotate_apply _ _ _ _ _).trans ?_
  refine (mulf_apply _ _ _).trans ?_
  show _ = blockSum _ c ⟨s.val / 32, _⟩ ⟨s.val % 32, _⟩ * ((1 / 16 : ℝ) : EReal)
  refine congrArg₂ (· * ·) ?_ ofBits_sixteenth
  refine (sum2_at _ _ _ _ _ c _ _).trans ?_
  refine Finset.sum_congr rfl fun kh _ => ?_
  refine (splitMiddle_apply _ _ c _ kh _ (cell ⟨s.val / 32, by omega⟩ kh) rfl).trans ?_
  refine (sum3_at _ _ _ _ _ c _ _).trans ?_
  refine Finset.sum_congr rfl fun kw _ => ?_
  refine (splitLast_apply _ _ c _ _ kw (cell ⟨s.val % 32, by omega⟩ kw) rfl).trans ?_
  exact shapeCast_1abc_abc_apply _ _ c _ _

/-! ## The guarded row norm -/

/-- The guarded norm of row `s`: the larger of the square root of the row's sum of squares and ε, kept as a column. -/
theorem pay4_at (x : Vec Ideal S1x64x128x128 .f32) (s : Fin 1024) (u : Fin 1) :
    k0_pay4 (F := Ideal) x (ix2 s u)
      = max (Ideal.sqrt (∑ k : Fin 64, k0_pay3 (F := Ideal) x (ix2 s k) * k0_pay3 (F := Ideal) x (ix2 s k)))
          (Ideal.ofBits .f32 0x322BCC77#32) := by
  unfold k0_pay4
  refine (maximumf_apply _ _ _).trans ?_
  refine congrArg₂ max ?_ rfl
  refine (Ideal.sqrt_def _).trans (congrArg Ideal.sqrt ?_)
  refine (KeepdimsColumn.shapeCast_a_a1_apply _ _ s u).trans ?_
  exact RowReduce.laneSum_at _ _ _ _ _ s

/-! ## The division of a row by its guarded norm -/

/-- Each entry `(s, c)` of the rows divided by the column's entry for row `s`, with a unit axis put in front. -/
theorem pay1_at (rows : FVec Ideal S1024x64 .f32) (norms : FVec Ideal S1024x1 .f32) (s : Fin 1024) (c : Fin 64) :
    k0_pay1 (F := Ideal) rows norms (ix3 (0 : Fin 1) s c) = Ideal.div (rows (ix2 s c)) (norms (ix2 s (0 : Fin 1))) := by
  unfold k0_pay1
  refine (shapeCast_ab_1ab_apply _ _ (0 : Fin 1) s c).trans ?_
  refine (divf_apply _ _ _).trans ?_
  exact congrArg (Ideal.div _) (KeepdimsColumn.broadcastTo_a1_ab_apply _ _ s c)

/-! ## The two outputs' payloads -/

/-- The second output's payload is the same chain of operations as the first's, cut after the rows and their norms. -/
theorem pay1_eq_pay2 (x1 : Vec Ideal S1x64x128x128 .f32) :
    k0_pay1 (F := Ideal) (k0_pay3 x1) (k0_pay4 x1) = k0_pay2 x1 := rfl

/-- The payload at `(0, s, c)` is the normalized pooled row `s` at channel `c`. -/
theorem pay2_at (x0 : Vec Ideal S1x64x128x128 .f32) (s : Fin 1024) (c : Fin 64) :
    k0_pay2 (F := Ideal) x0 (ix3 (0 : Fin 1) s c) = Cert.RegionLoss.unit (fun c h w => x0 (ix4 (0 : Fin 1) c h w)) s c := by
  refine (congrFun (pay1_eq_pay2 x0).symm _).trans ?_
  refine (pay1_at _ _ s c).trans ?_
  unfold Cert.RegionLoss.unit rowNorm
  refine congrArg₂ Ideal.div (pay3_at x0 s c) ?_
  refine (pay4_at x0 s 0).trans ?_
  refine congrArg (fun t => max (Ideal.sqrt t) (Ideal.ofBits .f32 0x322BCC77#32)) ?_
  exact Finset.sum_congr rfl fun k _ => congrArg₂ (· * ·) (pay3_at x0 s k) (pay3_at x0 s k)

end Cert.RegionLoss.Pool

end
-- ==== Proof.PoolRegion.lean ====
/-
  What the pooling kernel leaves in its two result arrays.

  Grid point `b` reads batch entry `b` of each argument (a [1, 64, 128, 128] block) and writes block `b` of each result (a
  [1, 1024, 64] block): the 1024 normalized pooled rows of that batch entry.  The eight blocks tile the result, so each
  result array ends holding, at `(b, s, c)`, the normalized pooled row `s` of batch entry `b` at channel `c`.
-/
import proofs.«122906_j61263413510181_2_alg».proof.Proof.Gen.KernelIdeal.Frame
import proofs.«122906_j61263413510181_2_alg».proof.Proof.PoolPayload
import Idealize.ShloMosaic.Lib.Pipeline.Value

set_option maxRecDepth 16384

noncomputable section

namespace Cert.KernelIdeal.PoolValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RegionLoss

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The [8, 1024, 64] array of normalized pooled rows of an argument array. -/
def rowsArr (x : ArgIdx → EReal) : S8x1024x64.Idx → EReal :=
  fun i => unit (slab x ⟨(i 0).val, (i 0).isLt⟩) ⟨(i 1).val, (i 1).isLt⟩ ⟨(i 2).val, (i 2).isLt⟩

/-- The rows array at an index whose coordinates are known. -/
theorem rowsArr_at (x : ArgIdx → EReal) (b : Fin 8) (s : Fin 1024) (ch : Fin 64) (i : S8x1024x64.Idx)
    (h0 : (i 0).val = b.val) (h1 : (i 1).val = s.val) (h2 : (i 2).val = ch.val) : rowsArr x i = unit (slab x b) s ch := by
  unfold rowsArr
  have e0 : (⟨(i 0).val, (i 0).isLt⟩ : Fin 8) = b := Fin.ext h0
  have e1 : (⟨(i 1).val, (i 1).isLt⟩ : Fin 1024) = s := Fin.ext h1
  have e2 : (⟨(i 2).val, (i 2).isLt⟩ : Fin 64) = ch := Fin.ext h2
  rw [e0, e1, e2]

/-- The index maps over the grid: an input block and the output block of the same argument sit at the same batch entry,
    and every other block coordinate is 0. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 4) = win0_3.index t (0 : Fin 3) ∧ win0_1.index t (1 : Fin 4) = 0
    ∧ win0_1.index t (2 : Fin 4) = 0 ∧ win0_1.index t (3 : Fin 4) = 0
    ∧ win0_2.index t (0 : Fin 3) < 8 ∧ win0_2.index t (1 : Fin 3) = 0 ∧ win0_2.index t (2 : Fin 3) = 0
    ∧ win0_3.index t (0 : Fin 3) < 8 ∧ win0_3.index t (1 : Fin 3) = 0 ∧ win0_3.index t (2 : Fin 3) = 0 :=
  (by decide +kernel : ∀ t : Fin grid0.N, _)

/-- Every batch entry is some point's. -/
theorem idx_onto2 : ∀ q : Fin 8, ∃ t : Fin cfg0.N, win0_2.index t (0 : Fin 3) = q.val :=
  (by decide +kernel : ∀ q : Fin 8, ∃ t : Fin grid0.N, win0_2.index t (0 : Fin 3) = q.val)
theorem idx_onto3 : ∀ q : Fin 8, ∃ t : Fin cfg0.N, win0_3.index t (0 : Fin 3) = q.val :=
  (by decide +kernel : ∀ q : Fin 8, ∃ t : Fin grid0.N, win0_3.index t (0 : Fin 3) = q.val)

/-- What point `t` writes back of the first result is block `t` of the rows array of the first argument. -/
theorem flushed2_eq (c : Dev nD) (t : Fin cfg0.N) :
    (dat0 V c).flushed 2 t = ((cfg0.win 2).blk t).view.read (Elt Ideal) (rowsArr (V c main_arg0)) := by
  show (cfg0.win 2).cut (grid0.coords t) ((dat0 V c).after 2 t) = _
  rw [after0_2]
  unfold out0_2
  rw [View.canon_unit_zero hz3]
  simp only [View.ld_unit_zero (S := S1x64x128x128) hz4]
  obtain ⟨e0, e1, e2, e3, -, -, -, -, e8, e9, e10, -⟩ := idx_facts t
  refine funext fun (j : S1x1024x64.Idx) => ?_
  obtain ⟨u, s, ch, rfl⟩ : ∃ (u : Fin 1) (s : Fin 1024) (ch : Fin 64), j = ix3 u s ch := ⟨j 0, j 1, j 2, eq_ix3 j⟩
  obtain rfl : u = 0 := Subsingleton.elim _ _
  show k0_pay2 (iblk0 V c 0 t) (ix3 (0 : Fin 1) s ch) = rowsArr (V c main_arg0) (((cfg0.win 2).blk t).view.emb (ix3 (0 : Fin 1) s ch))
  refine (Pool.pay2_at (iblk0 V c 0 t) s ch).trans ?_
  refine Eq.trans ?_ (rowsArr_at (V c main_arg0) ⟨win0_2.index t (0 : Fin 3), e8⟩ s ch _ ?_ ?_ ?_).symm
  · refine congrArg (fun y : Slab => unit y s ch) (funext fun c' => funext fun h => funext fun w => ?_)
    show V c main_arg0 (((cfg0.win 0).blk t).view.emb (ix4 (0 : Fin 1) c' h w)) = V c main_arg0 (ix4 ⟨win0_2.index t (0 : Fin 3), e8⟩ c' h w)
    refine congrArg (V c main_arg0) (funext fun a => Fin.ext ?_)
    match a with
    | ⟨0, _⟩ => show win0_0.index t (0 : Fin 4) * 1 + 1 * 0 = win0_2.index t (0 : Fin 3); omega
    | ⟨1, _⟩ => show win0_0.index t (1 : Fin 4) * 64 + 1 * c'.val = c'.val; omega
    | ⟨2, _⟩ => show win0_0.index t (2 : Fin 4) * 128 + 1 * h.val = h.val; omega
    | ⟨3, _⟩ => show win0_0.index t (3 : Fin 4) * 128 + 1 * w.val = w.val; omega
  · show win0_2.index t (0 : Fin 3) * 1 + 1 * 0 = win0_2.index t (0 : Fin 3); omega
  · show win0_2.index t (1 : Fin 3) * 1024 + 1 * s.val = s.val; omega
  · show win0_2.index t (2 : Fin 3) * 64 + 1 * ch.val = ch.val; omega

/-- What point `t` writes back of the second result is block `t` of the rows array of the second argument: the body's
    second chain of operations is the first one, cut at another place. -/
theorem flushed3_eq (c : Dev nD) (t : Fin cfg0.N) :
    (dat0 V c).flushed 3 t = ((cfg0.win 3).blk t).view.read (Elt Ideal) (rowsArr (V c main_arg1)) := by
  show (cfg0.win 3).cut (grid0.coords t) ((dat0 V c).after 3 t) = _
  rw [after0_3]
  unfold out0_3
  rw [View.canon_unit_zero hz3]
  simp only [View.ld_unit_zero (S := S1x64x128x128) hz4]
  rw [Pool.pay1_eq_pay2]
  obtain ⟨-, -, -, -, e0, e1, e2, e3, -, -, -, e8, e9, e10⟩ := idx_facts t
  refine funext fun (j : S1x1024x64.Idx) => ?_
  obtain ⟨u, s, ch, rfl⟩ : ∃ (u : Fin 1) (s : Fin 1024) (ch : Fin 64), j = ix3 u s ch := ⟨j 0, j 1, j 2, eq_ix3 j⟩
  obtain rfl : u = 0 := Subsingleton.elim _ _
  show k0_pay2 (iblk0 V c 1 t) (ix3 (0 : Fin 1) s ch) = rowsArr (V c main_arg1) (((cfg0.win 3).blk t).view.emb (ix3 (0 : Fin 1) s ch))
  refine (Pool.pay2_at (iblk0 V c 1 t) s ch).trans ?_
  refine Eq.trans ?_ (rowsArr_at (V c main_arg1) ⟨win0_3.index t (0 : Fin 3), e8⟩ s ch _ ?_ ?_ ?_).symm
  · refine congrArg (fun y : Slab => unit y s ch) (funext fun c' => funext fun h => funext fun w => ?_)
    show V c main_arg1 (((cfg0.win 1).blk t).view.emb (ix4 (0 : Fin 1) c' h w)) = V c main_arg1 (ix4 ⟨win0_3.index t (0 : Fin 3), e8⟩ c' h w)
    refine congrArg (V c main_arg1) (funext fun a => Fin.ext ?_)
    match a with
    | ⟨0, _⟩ => show win0_1.index t (0 : Fin 4) * 1 + 1 * 0 = win0_3.index t (0 : Fin 3); omega
    | ⟨1, _⟩ => show win0_1.index t (1 : Fin 4) * 64 + 1 * c'.val = c'.val; omega
    | ⟨2, _⟩ => show win0_1.index t (2 : Fin 4) * 128 + 1 * h.val = h.val; omega
    | ⟨3, _⟩ => show win0_1.index t (3 : Fin 4) * 128 + 1 * w.val = w.val; omega
  · show win0_3.index t (0 : Fin 3) * 1 + 1 * 0 = win0_3.index t (0 : Fin 3); omega
  · show win0_3.index t (1 : Fin 3) * 1024 + 1 * s.val = s.val; omega
  · show win0_3.index t (2 : Fin 3) * 64 + 1 * ch.val = ch.val; omega

/-- An index of a result array is in point `t`'s block iff each coordinate is in the block's range on its axis. -/
theorem mem_blk2 (t : Fin cfg0.N) (i : S8x1024x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v0_0).slice (win0_2.rect t)).set ↔ _
  rw [View.set_slice_whole, Rect.mem_set_unit]
  exact Iff.rfl
theorem mem_blk3 (t : Fin cfg0.N) (i : S8x1024x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0_1).slice (win0_3.rect t)).set ↔ _
  rw [View.set_slice_whole, Rect.mem_set_unit]
  exact Iff.rfl

/-- The eight blocks cover each result array: index `(b, s, c)` is in the block of the point at batch entry `b`. -/
theorem cover2 (i : S8x1024x64.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 64 := (i 2).isLt
  obtain ⟨t, ht⟩ := idx_onto2 ⟨(i 0).val, h0⟩
  have q0 : win0_2.index t (0 : Fin 3) = (i 0).val := ht
  obtain ⟨-, -, -, -, -, -, -, -, -, e9, e10, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega
theorem cover3 (i : S8x1024x64.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 64 := (i 2).isLt
  obtain ⟨t, ht⟩ := idx_onto3 ⟨(i 0).val, h0⟩
  have q0 : win0_3.index t (0 : Fin 3) = (i 0).val := ht
  obtain ⟨-, -, -, -, -, -, -, -, -, -, -, -, e9, e10⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The two result arrays after the kernel: the rows arrays of the two arguments as the kernel finds them. -/
theorem final2 (c : Dev nD) : (dat0 V c).arrAt 2 cfg0.N = rowsArr (V c main_arg0) :=
  (dat0 V c).arrAt_eq_of_cover 2 (rowsArr (V c main_arg0)) (fun t _ => flushed2_eq V c t) cover2
theorem final3 (c : Dev nD) : (dat0 V c).arrAt 3 cfg0.N = rowsArr (V c main_arg1) :=
  (dat0 V c).arrAt_eq_of_cover 3 (rowsArr (V c main_arg1)) (fun t _ => flushed3_eq V c t) cover3

end Cert.KernelIdeal.PoolValue

end
-- ==== Proof.GramPayload.lean ====
/-
  The second kernel's three products, entry by entry.

  The kernel contracts two [8192, 64] matrices over their 8192 rows: entry `(c, d)` of the product of `A` and `B` is
  `∑ n, A n c · B n d`, the `(c, d)` entry of `Aᵀ B`.  Rounding the operands to bf16 first is the identity on exact values, and
  the accumulator is the zero matrix.
-/
import proofs.«122906_j61263413510181_2_alg».proof.Proof.Gen.KernelIdeal.Skeleton
import proofs.«122906_j61263413510181_2_alg».proof.Proof.Spec
import Idealize.ShloMosaic.Lib.ValueIdx
import Idealize.ShloMosaic.Lib.Pipeline.Value
import Idealize.ShloMosaic.PureOps.Ideal.Laws

noncomputable section

namespace Cert.RegionLoss.Gram

open Idealize.ShloMosaic Idealize.ShloMosaic.ValueIdx Cert.KernelIdeal Cert.KernelIdeal.Gen

/-- The contraction record of the three products: both operands contracted on their row axis. -/
abbrev D := dot_S8192x64_S8192x64_S64x64_0_0_1_1_n_n

theorem lhs_row (j : S64x64.Idx) (q : D.contr.Idx) : (D.lhsIdx j q 0).val = (q ⟨0, by decide⟩).val :=
  D.lhsIdx_val_of_single rfl j q
theorem rhs_row (j : S64x64.Idx) (q : D.contr.Idx) : (D.rhsIdx j q 0).val = (q ⟨0, by decide⟩).val :=
  D.rhsIdx_val_of_single rfl j q
theorem lhs_col (j : S64x64.Idx) (q : D.contr.Idx) : (D.lhsIdx j q 1).val = (j 0).val := by
  unfold DotDims.lhsIdx
  rw [dif_neg (show ¬(1 : Fin S8192x64.rank) ∈ D.lhsBatch by decide), dif_pos (show (1 : Fin S8192x64.rank) ∈ D.lhsNonContracting by decide)]
  rfl
theorem rhs_col (j : S64x64.Idx) (q : D.contr.Idx) : (D.rhsIdx j q 1).val = (j 1).val := by
  unfold DotDims.rhsIdx
  rw [dif_neg (show ¬(1 : Fin S8192x64.rank) ∈ D.rhsBatch by decide), dif_pos (show (1 : Fin S8192x64.rank) ∈ D.rhsNonContracting by decide)]
  rfl

/-- The product of two [8192, 64] matrices over their rows, into the zero accumulator, at entry `(c, d)`. -/
theorem product_at (a b : FVec Ideal S8192x64 .bf16) (c d : Fin 64) :
    matmul D none a b (constant S64x64 .f32 0x00000000#32) (ix2 c d) = ∑ n : Fin 8192, a (ix2 n c) * b (ix2 n d) := by
  show FloatOps.matmul D none a b (constant S64x64 .f32 0x00000000#32) (ix2 c d) = _
  rw [Ideal.matmul_constant_zero_apply, ← Equiv.sum_comp (ValueIdx.contrEquiv1 D 8192 rfl rfl).symm]
  refine Finset.sum_congr rfl fun n _ => ?_
  have hn := ValueIdx.contrEquiv1_symm_val D 8192 rfl rfl n
  have el : D.lhsIdx (ix2 c d) ((ValueIdx.contrEquiv1 D 8192 rfl rfl).symm n) = ix2 n c := funext fun ax => Fin.ext (by
    match ax with
    | ⟨0, _⟩ => exact (lhs_row _ _).trans hn
    | ⟨1, _⟩ => exact lhs_col _ _)
  have er : D.rhsIdx (ix2 c d) ((ValueIdx.contrEquiv1 D 8192 rfl rfl).symm n) = ix2 n d := funext fun ax => Fin.ext (by
    match ax with
    | ⟨0, _⟩ => exact (rhs_row _ _).trans hn
    | ⟨1, _⟩ => exact rhs_col _ _)
  rw [el, er]

/-- The operand the kernel feeds the matrix unit is the loaded matrix itself: the cast to its own shape and the rounding
    to bf16 change nothing at the exact values. -/
theorem operand_at (x : Vec Ideal S8192x64 .f32) (i : S8192x64.Idx) : k1_pay1 (F := Ideal) x i = x i := by
  unfold k1_pay1
  show shapeCast S8192x64 x shapeCasts_S8192x64_S8192x64 i = x i
  rw [shapeCast_self]
theorem operand_at' (x : Vec Ideal S8192x64 .f32) (i : S8192x64.Idx) : k1_pay2 (F := Ideal) x i = x i := by
  unfold k1_pay2
  show shapeCast S8192x64 x shapeCasts_S8192x64_S8192x64 i = x i
  rw [shapeCast_self]

/-- `Aᵀ A` of the first operand. -/
theorem pay3_at (x0 : Vec Ideal S8192x64 .f32) (c d : Fin 64) :
    k1_pay3 (F := Ideal) x0 (ix2 c d) = ∑ n : Fin 8192, x0 (ix2 n c) * x0 (ix2 n d) := by
  unfold k1_pay3
  refine (product_at _ _ c d).trans (Finset.sum_congr rfl fun n _ => ?_)
  rw [operand_at, operand_at]

/-- `Bᵀ B` of the second operand. -/
theorem pay4_at (x1 : Vec Ideal S8192x64 .f32) (c d : Fin 64) :
    k1_pay4 (F := Ideal) x1 (ix2 c d) = ∑ n : Fin 8192, x1 (ix2 n c) * x1 (ix2 n d) := by
  unfold k1_pay4
  refine (product_at _ _ c d).trans (Finset.sum_congr rfl fun n _ => ?_)
  rw [operand_at', operand_at']

/-- `Aᵀ B`. -/
theorem pay5_at (x0 x1 : Vec Ideal S8192x64 .f32) (c d : Fin 64) :
    k1_pay5 (F := Ideal) x0 x1 (ix2 c d) = ∑ n : Fin 8192, x0 (ix2 n c) * x1 (ix2 n d) := by
  unfold k1_pay5
  refine (product_at _ _ c d).trans (Finset.sum_congr rfl fun n _ => ?_)
  rw [operand_at, operand_at']

end Cert.RegionLoss.Gram

end
-- ==== Proof.GramRegion.lean ====
/-
  What the second kernel leaves in its three result arrays.

  Its grid has one point and every window's block is its whole array, so each result array ends holding the body's
  product of the two operand arrays as the kernel finds them.
-/
import proofs.«122906_j61263413510181_2_alg».proof.Proof.Gen.KernelIdeal.Frame
import proofs.«122906_j61263413510181_2_alg».proof.Proof.GramPayload
import Idealize.ShloMosaic.Lib.Pipeline.Value

set_option maxRecDepth 16384

noncomputable section

namespace Cert.KernelIdeal.GramValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- Every window of the second kernel sits at block (0, 0) at the grid's one point. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The first operand's block at the one point is its whole array. -/
theorem iblk_0 (c : Dev nD) (t : Fin cfg1.N) : iblk1 V c 0 t = V c main_v1 := by
  obtain ⟨e0, e1, -⟩ := idx_facts t
  funext y
  show V c main_v1 (((cfg1.win 0).blk t).view.emb y) = V c main_v1 y
  refine congrArg (V c main_v1) (funext fun a => Fin.ext ?_)
  match a with
  | ⟨0, _⟩ => show win1_0.index t (0 : Fin 2) * 8192 + 1 * (y 0).val = (y 0).val; omega
  | ⟨1, _⟩ => show win1_0.index t (1 : Fin 2) * 64 + 1 * (y 1).val = (y 1).val; omega

/-- The second operand's block at the one point is its whole array. -/
theorem iblk_1 (c : Dev nD) (t : Fin cfg1.N) : iblk1 V c 1 t = V c main_v2 := by
  obtain ⟨-, -, e0, e1, -⟩ := idx_facts t
  funext y
  show V c main_v2 (((cfg1.win 1).blk t).view.emb y) = V c main_v2 y
  refine congrArg (V c main_v2) (funext fun a => Fin.ext ?_)
  match a with
  | ⟨0, _⟩ => show win1_1.index t (0 : Fin 2) * 8192 + 1 * (y 0).val = (y 0).val; omega
  | ⟨1, _⟩ => show win1_1.index t (1 : Fin 2) * 64 + 1 * (y 1).val = (y 1).val; omega

/-- An index of a result array is in the one point's block iff each coordinate is in the block's range. -/
theorem mem_blk2 (t : Fin cfg1.N) (i : S64x64.Idx) :
    i ∈ ((cfg1.win 2).blk t).view.set ↔ ∀ a : Fin 2, win1_2.index t a * S64x64.size a ≤ (i a).val ∧ (i a).val < win1_2.index t a * S64x64.size a + S64x64.size a := by
  show i ∈ ((View.whole main_v3_0).slice (win1_2.rect t)).set ↔ _
  rw [View.set_slice_whole, Rect.mem_set_unit]
  exact Iff.rfl
theorem mem_blk3 (t : Fin cfg1.N) (i : S64x64.Idx) :
    i ∈ ((cfg1.win 3).blk t).view.set ↔ ∀ a : Fin 2, win1_3.index t a * S64x64.size a ≤ (i a).val ∧ (i a).val < win1_3.index t a * S64x64.size a + S64x64.size a := by
  show i ∈ ((View.whole main_v3_1).slice (win1_3.rect t)).set ↔ _
  rw [View.set_slice_whole, Rect.mem_set_unit]
  exact Iff.rfl
theorem mem_blk4 (t : Fin cfg1.N) (i : S64x64.Idx) :
    i ∈ ((cfg1.win 4).blk t).view.set ↔ ∀ a : Fin 2, win1_4.index t a * S64x64.size a ≤ (i a).val ∧ (i a).val < win1_4.index t a * S64x64.size a + S64x64.size a := by
  show i ∈ ((View.whole main_v3_2).slice (win1_4.rect t)).set ↔ _
  rw [View.set_slice_whole, Rect.mem_set_unit]
  exact Iff.rfl

/-- A result block read through the one point's rectangle is the array itself. -/
theorem read_blk2 (t : Fin cfg1.N) (G : S64x64.Idx → EReal) : ((cfg1.win 2).blk t).view.read (Elt Ideal) G = G := by
  obtain ⟨-, -, -, -, e0, e1, -⟩ := idx_facts t
  funext y
  show G (((cfg1.win 2).blk t).view.emb y) = G y
  refine congrArg G (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem read_blk3 (t : Fin cfg1.N) (G : S64x64.Idx → EReal) : ((cfg1.win 3).blk t).view.read (Elt Ideal) G = G := by
  obtain ⟨-, -, -, -, -, -, e0, e1, -⟩ := idx_facts t
  funext y
  show G (((cfg1.win 3).blk t).view.emb y) = G y
  refine congrArg G (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem read_blk4 (t : Fin cfg1.N) (G : S64x64.Idx → EReal) : ((cfg1.win 4).blk t).view.read (Elt Ideal) G = G := by
  obtain ⟨-, -, -, -, -, -, -, -, e0, e1⟩ := idx_facts t
  funext y
  show G (((cfg1.win 4).blk t).view.emb y) = G y
  refine congrArg G (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What the one point writes back of each result: the body's product of the operand arrays. -/
theorem flushed2_eq (c : Dev nD) (t : Fin cfg1.N) :
    (dat1 V c).flushed 2 t = ((cfg1.win 2).blk t).view.read (Elt Ideal) (k1_pay3 (F := Ideal) (V c main_v1)) := by
  rw [read_blk2]
  show (cfg1.win 2).cut (grid1.coords t) ((dat1 V c).after 2 t) = _
  rw [after1_2]
  unfold out1_2
  rw [View.canon_unit_zero hz2]
  simp only [View.ld_unit_zero (S := S8192x64) hz2]
  rw [iblk_0]
  rfl
theorem flushed3_eq (c : Dev nD) (t : Fin cfg1.N) :
    (dat1 V c).flushed 3 t = ((cfg1.win 3).blk t).view.read (Elt Ideal) (k1_pay4 (F := Ideal) (V c main_v2)) := by
  rw [read_blk3]
  show (cfg1.win 3).cut (grid1.coords t) ((dat1 V c).after 3 t) = _
  rw [after1_3]
  unfold out1_3
  rw [View.canon_unit_zero hz2]
  simp only [View.ld_unit_zero (S := S8192x64) hz2]
  rw [iblk_1]
  rfl
theorem flushed4_eq (c : Dev nD) (t : Fin cfg1.N) :
    (dat1 V c).flushed 4 t = ((cfg1.win 4).blk t).view.read (Elt Ideal) (k1_pay5 (F := Ideal) (V c main_v1) (V c main_v2)) := by
  rw [read_blk4]
  show (cfg1.win 4).cut (grid1.coords t) ((dat1 V c).after 4 t) = _
  rw [after1_4]
  unfold out1_4
  rw [View.canon_unit_zero hz2]
  simp only [View.ld_unit_zero (S := S8192x64) hz2]
  rw [iblk_0, iblk_1]
  rfl

/-- The one point's block covers each result array. -/
theorem cover2 (i : S64x64.Idx) : ∃ t : Fin cfg1.N, (cfg1.win 2).flush t = true ∧ i ∈ ((cfg1.win 2).blk t).view.set := by
  refine ⟨t1_0, flush1_2 t1_0, ?_⟩
  obtain ⟨-, -, -, -, e0, e1, -⟩ := idx_facts t1_0
  rw [mem_blk2]
  intro a
  have h0 : (i 0).val < 64 := (i 0).isLt
  have h1 : (i 1).val < 64 := (i 1).isLt
  match a with
  | ⟨0, _⟩ => show win1_2.index t1_0 (0 : Fin 2) * 64 ≤ (i 0).val ∧ (i 0).val < win1_2.index t1_0 (0 : Fin 2) * 64 + 64; omega
  | ⟨1, _⟩ => show win1_2.index t1_0 (1 : Fin 2) * 64 ≤ (i 1).val ∧ (i 1).val < win1_2.index t1_0 (1 : Fin 2) * 64 + 64; omega
theorem cover3 (i : S64x64.Idx) : ∃ t : Fin cfg1.N, (cfg1.win 3).flush t = true ∧ i ∈ ((cfg1.win 3).blk t).view.set := by
  refine ⟨t1_0, flush1_3 t1_0, ?_⟩
  obtain ⟨-, -, -, -, -, -, e0, e1, -⟩ := idx_facts t1_0
  rw [mem_blk3]
  intro a
  have h0 : (i 0).val < 64 := (i 0).isLt
  have h1 : (i 1).val < 64 := (i 1).isLt
  match a with
  | ⟨0, _⟩ => show win1_3.index t1_0 (0 : Fin 2) * 64 ≤ (i 0).val ∧ (i 0).val < win1_3.index t1_0 (0 : Fin 2) * 64 + 64; omega
  | ⟨1, _⟩ => show win1_3.index t1_0 (1 : Fin 2) * 64 ≤ (i 1).val ∧ (i 1).val < win1_3.index t1_0 (1 : Fin 2) * 64 + 64; omega
theorem cover4 (i : S64x64.Idx) : ∃ t : Fin cfg1.N, (cfg1.win 4).flush t = true ∧ i ∈ ((cfg1.win 4).blk t).view.set := by
  refine ⟨t1_0, flush1_4 t1_0, ?_⟩
  obtain ⟨-, -, -, -, -, -, -, -, e0, e1⟩ := idx_facts t1_0
  rw [mem_blk4]
  intro a
  have h0 : (i 0).val < 64 := (i 0).isLt
  have h1 : (i 1).val < 64 := (i 1).isLt
  match a with
  | ⟨0, _⟩ => show win1_4.index t1_0 (0 : Fin 2) * 64 ≤ (i 0).val ∧ (i 0).val < win1_4.index t1_0 (0 : Fin 2) * 64 + 64; omega
  | ⟨1, _⟩ => show win1_4.index t1_0 (1 : Fin 2) * 64 ≤ (i 1).val ∧ (i 1).val < win1_4.index t1_0 (1 : Fin 2) * 64 + 64; omega

/-- The three result arrays after the kernel: the products of the two operand arrays as the kernel finds them. -/
theorem final2 (c : Dev nD) : (dat1 V c).arrAt 2 cfg1.N = k1_pay3 (F := Ideal) (V c main_v1) :=
  (dat1 V c).arrAt_eq_of_cover 2 (k1_pay3 (F := Ideal) (V c main_v1)) (fun t _ => flushed2_eq V c t) cover2
theorem final3 (c : Dev nD) : (dat1 V c).arrAt 3 cfg1.N = k1_pay4 (F := Ideal) (V c main_v2) :=
  (dat1 V c).arrAt_eq_of_cover 3 (k1_pay4 (F := Ideal) (V c main_v2)) (fun t _ => flushed3_eq V c t) cover3
theorem final4 (c : Dev nD) : (dat1 V c).arrAt 4 cfg1.N = k1_pay5 (F := Ideal) (V c main_v1) (V c main_v2) :=
  (dat1 V c).arrAt_eq_of_cover 4 (k1_pay5 (F := Ideal) (V c main_v1) (V c main_v2)) (fun t _ => flushed4_eq V c t) cover4

end Cert.KernelIdeal.GramValue

end
-- ==== Proof.LossTail.lean ====
/-
  The kernel's last host operations as one function of the three 64 × 64 products.

  From `Ga = X₁ᵀX₁`, `Gb = X₂ᵀX₂` and `H = X₁ᵀX₂` the host forms `(∑ Ga² − 2·∑ H² + ∑ Gb²) / 2²⁶`; each sum runs over all 64 × 64
  entries from the initial value `0`.
-/
import proofs.«122906_j61263413510181_2_alg».proof.Proof.Gen.KernelIdeal
import proofs.«122906_j61263413510181_2_alg».proof.Proof.Spec
import Idealize.ShloMosaic.Lib.ValueIdx
import Idealize.ShloMosaic.PureOps.Ideal.Laws

noncomputable section

namespace Cert.RegionLoss.Tail

open Idealize.ShloMosaic Idealize.ShloMosaic.ValueIdx Cert.KernelIdeal

/-- The sum of the squares of all entries of a 64 × 64 array, as the host computes it. -/
def hostSumSq (g : FVec Ideal S64x64 .f32) : FVec Ideal S_ .f32 :=
  Host.reduceAdd (F := Ideal) (mulf g g) (constant (F := Ideal) S_ .f32 0x00000000#32) Facts₀.reducesTo_S64x64_S_d0_1 Facts₀.h_S_

/-- The fifteen host operations after the second kernel, as one function of its three results. -/
def tail (ga gb h : FVec Ideal S64x64 .f32) : FVec Ideal S_ .f32 :=
  Host.divf (F := Ideal)
    (addf (subf (hostSumSq ga) (mulf (constant (F := Ideal) S_ .f32 0x40000000#32) (hostSumSq h))) (hostSumSq gb))
    (constant (F := Ideal) S_ .f32 0x4C800000#32)

/-- The host's sum of squares is the double sum over rows and columns. -/
theorem hostSumSq_eq (g : FVec Ideal S64x64 .f32) (G : Fin 64 → Fin 64 → EReal) (hg : ∀ c d, g (ix2 c d) = G c d) (i : S_.Idx) :
    hostSumSq g i = sumSq G := by
  unfold hostSumSq sumSq
  simp only [Host.reduceAdd, Ideal.hostReduceAdd_def]
  rw [Ideal.hostReduceAdd_total Facts₀.reducesTo_S64x64_S_d0_1 (fun b => b.elim0)]
  show Ideal.ofBits .f32 0x00000000#32 + _ = _
  rw [Ideal.ofBits_zero_f32, zero_add, ValueIdx.sum_idx2]
  exact Finset.sum_congr rfl fun c _ => Finset.sum_congr rfl fun d _ => by
    show g (ix2 c d) * g (ix2 c d) = _
    rw [hg]

/-- The tail of the program at the three Gram matrices is the closed form of the loss. -/
theorem tail_eq (ga gb h : FVec Ideal S64x64 .f32) (X₁ X₂ : Fin 8192 → Fin 64 → EReal)
    (hga : ∀ c d, ga (ix2 c d) = gram X₁ X₁ c d) (hgb : ∀ c d, gb (ix2 c d) = gram X₂ X₂ c d)
    (hh : ∀ c d, h (ix2 c d) = gram X₁ X₂ c d) (i : S_.Idx) :
    tail ga gb h i = lossGram X₁ X₂ := by
  unfold tail lossGram
  show Ideal.div (hostSumSq ga i - Ideal.ofBits .f32 0x40000000#32 * hostSumSq h i + hostSumSq gb i) (Ideal.ofBits .f32 0x4C800000#32) = _
  rw [hostSumSq_eq ga _ hga, hostSumSq_eq gb _ hgb, hostSumSq_eq h _ hh]

end Cert.RegionLoss.Tail

end
-- ==== Proof.KernelValue.lean ====
/-
  The idealized kernel's result as one function of its two arguments.

  Reading the run backwards: the result is the last host stretch's function of the three 64 × 64 products; each product is
  the second kernel's contraction of the two flattened row matrices over their 8192 rows; each flattened matrix is the
  [8, 1024, 64] array the pooling kernel wrote, row `b·1024 + s` being its entry `(b, s)`; and that array holds the normalized
  pooled rows of the argument.  So the result is the closed form over the two 8192 × 64 matrices of normalized rows.
-/
import proofs.«122906_j61263413510181_2_alg».proof.Proof.Gen.KernelIdeal.Frame
import proofs.«122906_j61263413510181_2_alg».proof.Proof.PoolRegion
import proofs.«122906_j61263413510181_2_alg».proof.Proof.GramRegion
import proofs.«122906_j61263413510181_2_alg».proof.Proof.LossTail
import Idealize.ShloMosaic.Lib.StableHlo.Run
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.ShloMosaic.StableHlo
open Idealize.SL Idealize.SL.Sem
open Cert.KernelIdeal Cert.KernelIdeal.Gen Cert.RegionLoss

variable (m : (ℓ : Loc nD τ sig) → Buf (Elt Ideal) ℓ) (ρ : Dev nD → PrngReg)

/-- Flattening the [8, 1024, 64] rows array to [8192, 64]: row `n` is entry `(n / 1024, n % 1024)`. -/
theorem flat_rows (x : ArgIdx → EReal) (n : Fin 8192) (ch : Fin 64) :
    shapeCast S8192x64 (PoolValue.rowsArr x) Facts₀.shapeCasts_S8x1024x64_S8192x64 (ix2 n ch) = unitRow x n ch := by
  have hn := n.isLt
  refine (shapeCast_apply (PoolValue.rowsArr x) Facts₀.shapeCasts_S8x1024x64_S8192x64 (ix2 n ch)
    (ix3 (⟨n.val / 1024, by omega⟩ : Fin 8) (⟨n.val % 1024, by omega⟩ : Fin 1024) ch) ?_).trans ?_
  · rw [Shape.rowMajor_val_three, Shape.rowMajor_val_two]
    show (n.val / 1024 * 1024 + n.val % 1024) * 64 + ch.val = n.val * 64 + ch.val
    omega
  · exact PoolValue.rowsArr_at x _ _ _ _ rfl rfl rfl

/-- After the pooling kernel its two result arrays hold the rows arrays of the two arguments. -/
theorem rows0 (c : Dev nD) : W1 m ρ c (Proc.devRef .tc main_v0_0) = PoolValue.rowsArr (m ((c : Thread nD τ).loc main_arg0)) :=
  (W1_arr m ρ c 2).trans (PoolValue.final2 (V0 m ρ) c)
theorem rows1 (c : Dev nD) : W1 m ρ c (Proc.devRef .tc main_v0_1) = PoolValue.rowsArr (m ((c : Thread nD τ).loc main_arg1)) :=
  (W1_arr m ρ c 3).trans (PoolValue.final3 (V0 m ρ) c)

/-- The second kernel's operands: the host's flattening of the two rows arrays. -/
theorem flat0 (c : Dev nD) : V2 m ρ c main_v1 = shapeCast S8192x64 (W1 m ρ c (Proc.devRef .tc main_v0_0)) Facts₀.shapeCasts_S8x1024x64_S8192x64 := by
  show StableHlo.after hostOps1 (W1 m ρ c) (Proc.devRef .tc main_v1) = _
  after_results
  rfl
theorem flat1 (c : Dev nD) : V2 m ρ c main_v2 = shapeCast S8192x64 (W1 m ρ c (Proc.devRef .tc main_v0_1)) Facts₀.shapeCasts_S8x1024x64_S8192x64 := by
  show StableHlo.after hostOps1 (W1 m ρ c) (Proc.devRef .tc main_v2) = _
  after_results
  rfl

/-- The second kernel's first operand is the matrix of normalized rows of the first argument, and its second operand
    that of the second. -/
theorem operand0_at (c : Dev nD) (n : Fin 8192) (ch : Fin 64) :
    V2 m ρ c main_v1 (ix2 n ch) = unitRow (m ((c : Thread nD τ).loc main_arg0)) n ch := by
  rw [flat0, rows0]
  exact flat_rows _ n ch
theorem operand1_at (c : Dev nD) (n : Fin 8192) (ch : Fin 64) :
    V2 m ρ c main_v2 (ix2 n ch) = unitRow (m ((c : Thread nD τ).loc main_arg1)) n ch := by
  rw [flat1, rows1]
  exact flat_rows _ n ch

/-- After the second kernel its three result arrays hold the products of its operands. -/
theorem prod_a (c : Dev nD) : W3 m ρ c (Proc.devRef .tc main_v3_0) = k1_pay3 (F := Ideal) (V2 m ρ c main_v1) :=
  (W3_arr m ρ c 2).trans (GramValue.final2 (V2 m ρ) c)
theorem prod_b (c : Dev nD) : W3 m ρ c (Proc.devRef .tc main_v3_1) = k1_pay4 (F := Ideal) (V2 m ρ c main_v2) :=
  (W3_arr m ρ c 3).trans (GramValue.final3 (V2 m ρ) c)
theorem prod_h (c : Dev nD) : W3 m ρ c (Proc.devRef .tc main_v3_2) = k1_pay5 (F := Ideal) (V2 m ρ c main_v1) (V2 m ρ c main_v2) :=
  (W3_arr m ρ c 4).trans (GramValue.final4 (V2 m ρ) c)

/-- The result buffer after the last host stretch: the stretch's function of the three products. -/
theorem result_tail (c : Dev nD) : W4 m ρ c (Proc.devRef .tc main_v13)
    = Tail.tail (W3 m ρ c (Proc.devRef .tc main_v3_0)) (W3 m ρ c (Proc.devRef .tc main_v3_1)) (W3 m ρ c (Proc.devRef .tc main_v3_2)) := by
  show StableHlo.after hostOps2 (W3 m ρ c) (Proc.devRef .tc main_v13) = _
  after_results
  rfl

/-- The kernel's result is the closed form over the two matrices of normalized rows of its arguments. -/
theorem result_eq (c : Dev nD) : W4 m ρ c (Proc.devRef .tc main_v13)
    = fun _ => lossGram (unitRow (m ((c : Thread nD τ).loc main_arg0))) (unitRow (m ((c : Thread nD τ).loc main_arg1))) := by
  rw [result_tail]
  funext i
  refine Tail.tail_eq _ _ _ (unitRow (m ((c : Thread nD τ).loc main_arg0))) (unitRow (m ((c : Thread nD τ).loc main_arg1))) ?_ ?_ ?_ i
  · intro c' d
    rw [prod_a]
    refine (Gram.pay3_at _ c' d).trans (Finset.sum_congr rfl fun n _ => ?_)
    rw [operand0_at, operand0_at]
  · intro c' d
    rw [prod_b]
    refine (Gram.pay4_at _ c' d).trans (Finset.sum_congr rfl fun n _ => ?_)
    rw [operand1_at, operand1_at]
  · intro c' d
    rw [prod_h]
    refine (Gram.pay5_at _ _ c' d).trans (Finset.sum_congr rfl fun n _ => ?_)
    rw [operand0_at, operand1_at]

end Cert.KernelIdeal.KernelValue

end
-- ==== Proof.lean ====
/-
  The kernel and its reference compute the same number.

  Both programs pool each argument by 4 × 4 blocks into 8192 rows of 64 channels and divide each row by
  `max(‖row‖₂, ε)`; call the two 8192 × 64 matrices `X₁`, `X₂`.  The reference forms the two 8192 × 8192 similarity matrices
  `X₁X₁ᵀ`, `X₂X₂ᵀ` and returns the mean of the squared entries of their difference.  The kernel never forms them: it
  contracts over the 8192 rows instead, `Ga = X₁ᵀX₁`, `Gb = X₂ᵀX₂`, `H = X₁ᵀX₂` (64 × 64 each), and returns
  `(‖Ga‖² − 2‖H‖² + ‖Gb‖²) / 8192²`.  The two agree because `∑ᵢⱼ (∑_c a_ic a_jc)(∑_d u_id u_jd) = ∑_cd (∑ᵢ a_ic u_id)²` — expand and
  exchange the finite sums — which holds for real entries.  On the extended reals it needs every entry of `X₁`, `X₂` to be
  real (products do not distribute over sums at infinities); that is where the precondition, every input finite, is used:
  finite inputs give finite pooled means, a real norm that is at least `ε > 0`, and so real quotients.
-/
import proofs.«122906_j61263413510181_2_alg».proof.Defs
import proofs.«122906_j61263413510181_2_alg».proof.Proof.Gen.Kernel
import proofs.«122906_j61263413510181_2_alg».proof.Proof.Gen.Kernel.Skeleton
import proofs.«122906_j61263413510181_2_alg».proof.Proof.Gen.Kernel.Launch
import proofs.«122906_j61263413510181_2_alg».proof.Proof.Gen.Kernel.Points
import proofs.«122906_j61263413510181_2_alg».proof.Proof.Gen.Kernel.Frame
import proofs.«122906_j61263413510181_2_alg».proof.Proof.Gen.KernelIdeal
import proofs.«122906_j61263413510181_2_alg».proof.Proof.Gen.KernelIdeal.Skeleton
import proofs.«122906_j61263413510181_2_alg».proof.Proof.Gen.KernelIdeal.Launch
import proofs.«122906_j61263413510181_2_alg».proof.Proof.Gen.KernelIdeal.Points
import proofs.«122906_j61263413510181_2_alg».proof.Proof.Gen.KernelIdeal.Frame
import proofs.«122906_j61263413510181_2_alg».proof.Proof.Gen.ReferenceIdeal
import proofs.«122906_j61263413510181_2_alg».proof.Proof.Gen.ReferenceIdeal.Run
import proofs.«122906_j61263413510181_2_alg».proof.Proof.Gen.ReferenceIdeal.Read
import proofs.«122906_j61263413510181_2_alg».proof.Proof.Gen.Pre_finite_inputs
import proofs.«122906_j61263413510181_2_alg».proof.Proof.Algebra
import proofs.«122906_j61263413510181_2_alg».proof.Proof.FiniteInputs
import proofs.«122906_j61263413510181_2_alg».proof.Proof.RefValue
import proofs.«122906_j61263413510181_2_alg».proof.Proof.KernelRun
import proofs.«122906_j61263413510181_2_alg».proof.Proof.KernelValue
import Idealize.ShloMosaic.Adequacy
import Idealize.ShloMosaic.Init

noncomputable section

namespace Cert.Proof

open Idealize.ShloMosaic Idealize.ShloMosaic.TcCoe Idealize.SL.Sem Cert.RegionLoss

/-- The word-level kernel runs and leaves its arguments unchanged. -/
theorem frame_k [Cert.Kernel.Facts] [Cert.Pre_finite_inputs.Facts] : Cert.frame_Kernel :=
  fun m ρ _ => Cert.Kernel.Gen.frame m ρ

/-- The idealized kernel runs and leaves its arguments unchanged. -/
theorem frame_ki [Cert.KernelIdeal.Facts] [Cert.Pre_finite_inputs.Facts] : Cert.frame_KernelIdeal :=
  fun m ρ _ => Cert.KernelIdeal.Gen.frame m ρ

/-- The reference, a line of host operations, runs and leaves its arguments unchanged. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From agreeing, finite arguments both idealized programs end at the closed form over the two matrices of normalized rows:
    the kernel by its run read backwards, the reference by its operations read one at a time and the identity between the
    pairwise form and the Gram form. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => lossGram (unitRow (m ((c.tc : Thread Cert.KernelIdeal.nD Cert.KernelIdeal.τ).loc Cert.KernelIdeal.main_arg0)))
      (unitRow (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KernelValue.result_eq m ρ c), (h c).2.1, (h c).2.2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨hx0, hx1⟩ := Cert.RegionLoss.Finite.finite_of_pre _ _ (hpre c)
    rw [Cert.ReferenceIdeal.Read.val_main_v37_eq, (hagree c).1, (hagree c).2]
    funext i
    rw [Cert.RegionLoss.Ref.ref_value]
    exact (loss_eq _ _ (unitRow_real _ hx0) (unitRow_real _ hx1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
